-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x512x56x56 : Shape := ⟨4, ![32, 512, 56, 56]⟩
abbrev S_ : Shape := ⟨0, ![]⟩

class Facts : Prop where
  bcast_S_S32x512x56x56 : S_.BroadcastsInDim S32x512x56x56 (![] : Fin 0 → Fin S32x512x56x56.rank)
  reducesTo_S32x512x56x56_S_d0_1_2_3 : S32x512x56x56.ReducesTo [0, 1, 2, 3] S_
  h_S_ : 0 < S_.numel

variable [Facts]

def fn {F : FTy → Type} [FloatOps F] (main_arg0 : FVec F S32x512x56x56 .f32) : IVec S_ 1 :=
  let main_v0 : FVec F S32x512x56x56 .f32 := Host.absf main_arg0
  let main_cst : FVec F S_ .f32 := constant S_ .f32 0x7F800000#32
  let main_v1 : FVec F S32x512x56x56 .f32 := broadcastInDim S32x512x56x56 ![] bcast_S_S32x512x56x56 main_cst
  let main_v2 : IVec S32x512x56x56 1 := cmpf .olt main_v0 main_v1
  let main_c : IVec S_ 1 := constantI S_ 1 1#1
  let main_v3 : IVec S_ 1 := (fun x v => Host.reduce IntOp.andi x v reducesTo_S32x512x56x56_S_d0_1_2_3 h_S_) main_v2 main_c
  main_v3
-- ==== Kernel.lean ====
abbrev S32x512x56x56 : Shape := ⟨4, ![32, 512, 56, 56]⟩
abbrev S401408x128 : Shape := ⟨2, ![401408, 128]⟩
abbrev S8192x128 : Shape := ⟨2, ![8192, 128]⟩

abbrev nBuf : Space → Nat
  | .hbm => 4
  | .vmem => 4
  | .smem => 0
  | _ => 0

abbrev bufTy : (tb : Table) → Fin (tcTables nBuf tb) → BufTy
  | .hbm, ⟨0, _⟩ => ⟨S32x512x56x56, .f32⟩
  | .hbm, ⟨1, _⟩ => ⟨S401408x128, .f32⟩
  | .hbm, ⟨2, _⟩ => ⟨S401408x128, .f32⟩
  | .hbm, ⟨3, _⟩ => ⟨S32x512x56x56, .f32⟩
  | .local _ .vmem, ⟨0, _⟩ => ⟨S8192x128, .f32⟩
  | .local _ .vmem, ⟨1, _⟩ => ⟨S8192x128, .f32⟩
  | .local _ .vmem, ⟨2, _⟩ => ⟨S8192x128, .f32⟩
  | .local _ .vmem, ⟨3, _⟩ => ⟨S8192x128, .f32⟩
  | _, _ => ⟨S32x512x56x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![49], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S32x512x56x56_S401408x128 : S32x512x56x56.ShapeCasts S401408x128
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  shapeCasts_S401408x128_S32x512x56x56 : S401408x128.ShapeCasts S32x512x56x56
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S401408x128.size a
  hwx0_0 : ∀ i : grid0.Coords, EltTy.bits .f32 = 32 ∨ (Rect.block (s := S401408x128) S8192x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S401408x128.size a
  hwx0_1 : ∀ i : grid0.Coords, EltTy.bits .f32 = 32 ∨ (Rect.block (s := S401408x128) S8192x128.size (cc0_transform_1 i) (hinb0_1 i)).WholeWords (EltTy.packing .f32)

variable [Facts₀]

abbrev win0_0 : Pipeline.Window sig grid0 :=
  Pipeline.Window.ofSpec (Memref.whole main_v0) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8192x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S32x512x56x56 : Shape := ⟨4, ![32, 512, 56, 56]⟩
abbrev S56x1 : Shape := ⟨2, ![56, 1]⟩
abbrev S_ : Shape := ⟨0, ![]⟩
abbrev S56x1x1 : Shape := ⟨3, ![56, 1, 1]⟩
abbrev S32x512x56x1x56 : Shape := ⟨5, ![32, 512, 56, 1, 56]⟩
abbrev S32x512x56x56x1 : Shape := ⟨5, ![32, 512, 56, 56, 1]⟩

abbrev nBuf : Space → Nat
  | .hbm => 22
  | .vmem => 0
  | .smem => 0
  | _ => 0

abbrev bufTy : (tb : Table) → Fin (tcTables nBuf tb) → BufTy
  | .hbm, ⟨0, _⟩ => ⟨S32x512x56x56, .f32⟩
  | .hbm, ⟨1, _⟩ => ⟨S56x1, .i32⟩
  | .hbm, ⟨2, _⟩ => ⟨S56x1, .i1⟩
  | .hbm, ⟨3, _⟩ => ⟨S56x1, .i1⟩
  | .hbm, ⟨4, _⟩ => ⟨S_, .i32⟩
  | .hbm, ⟨5, _⟩ => ⟨S56x1, .i32⟩
  | .hbm, ⟨6, _⟩ => ⟨S56x1, .i32⟩
  | .hbm, ⟨7, _⟩ => ⟨S56x1, .i32⟩
  | .hbm, ⟨8, _⟩ => ⟨S56x1x1, .i32⟩
  | .hbm, ⟨9, _⟩ => ⟨S32x512x56x1x56, .f32⟩
  | .hbm, ⟨10, _⟩ => ⟨S_, .f32⟩
  | .hbm, ⟨11, _⟩ => ⟨S32x512x56x56, .f32⟩
  | .hbm, ⟨12, _⟩ => ⟨S_, .f32⟩
  | .hbm, ⟨13, _⟩ => ⟨S32x512x56x56, .f32⟩
  | .hbm, ⟨14, _⟩ => ⟨S32x512x56x56, .f32⟩
  | .hbm, ⟨15, _⟩ => ⟨S_, .i32⟩
  | .hbm, ⟨16, _⟩ => ⟨S56x1, .i32⟩
  | .hbm, ⟨17, _⟩ => ⟨S56x1, .i32⟩
  | .hbm, ⟨18, _⟩ => ⟨S56x1, .i32⟩
  | .hbm, ⟨19, _⟩ => ⟨S56x1x1, .i32⟩
  | .hbm, ⟨20, _⟩ => ⟨S32x512x56x56x1, .f32⟩
  | .hbm, ⟨21, _⟩ => ⟨S32x512x56x56, .f32⟩
  | _, _ => ⟨S32x512x56x56, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_c_1 : Ref sig .tc := ⟨.hbm, 3, rfl⟩
abbrev main_c_2 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_cst_3 : Ref sig .tc := ⟨.hbm, 12, rfl⟩
abbrev main_v6 : Ref sig .tc := ⟨.hbm, 13, rfl⟩
abbrev main_v7 : Ref sig .tc := ⟨.hbm, 14, rfl⟩
abbrev main_c_4 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩

abbrev nD : Nat := 1
abbrev τ : Topo := Topo.v7x

variable {F : FTy → Type} [FloatOps F]

class Facts₀ : Prop where
  bcast_S_S56x1 : S_.BroadcastsInDim S56x1 (![] : Fin 0 → Fin S56x1.rank)
  bcast_S56x1_S56x1x1_0_1 : S56x1.BroadcastsInDim S56x1x1 (![0, 1] : Fin 2 → Fin S56x1x1.rank)
  reducesTo_S32x512x56x1x56_S32x512x56x56_d3 : S32x512x56x1x56.ReducesTo [3] S32x512x56x56
  h_S_ : 0 < S_.numel
  bcast_S_S32x512x56x56 : S_.BroadcastsInDim S32x512x56x56 (![] : Fin 0 → Fin S32x512x56x56.rank)
  shapeCasts_S32x512x56x56x1_S32x512x56x56 : S32x512x56x56x1.ShapeCasts S32x512x56x56
  gather_S32x512x56x56_S56x1x1_S32x512x56x1x56_014_2_n_n_2_2_32512156_wf : GatherDims.WF S32x512x56x56 S56x1x1 S32x512x56x1x56 [0, 1, 4] [2] [] [2] [] 2 ![32, 512, 1, 56]
  gather_S32x512x56x56_S56x1x1_S32x512x56x56x1_012_3_n_n_3_2_32512561_wf : GatherDims.WF S32x512x56x56 S56x1x1 S32x512x56x56x1 [0, 1, 2] [3] [] [3] [] 2 ![32, 512, 56, 1]

variable [Facts₀]

def gather_S32x512x56x56_S56x1x1_S32x512x56x1x56_014_2_n_n_2_2_32512156 : GatherDims S32x512x56x56 S56x1x1 S32x512x56x1x56 where
  offsetDims := [0, 1, 4]
  collapsedSliceDims := [2]
  operandBatchingDims := []
  startIndicesBatchingDims := []
  startIndexMap := [2]
  indexVectorDim := 2
  sliceSizes := ![32, 512, 1, 56]
  wf := gather_S32x512x56x56_S56x1x1_S32x512x56x1x56_014_2_n_n_2_2_32512156_wf
def gather_S32x512x56x56_S56x1x1_S32x512x56x56x1_012_3_n_n_3_2_32512561 : GatherDims S32x512x56x56 S56x1x1 S32x512x56x56x1 where
  offsetDims := [0, 1, 2]
  collapsedSliceDims := [3]
  operandBatchingDims := []
  startIndicesBatchingDims := []
  startIndexMap := [3]
  indexVectorDim := 2
  sliceSizes := ![32, 512, 56, 1]
  wf := gather_S32x512x56x56_S56x1x1_S32x512x56x56x1_012_3_n_n_3_2_32512561_wf

class Facts : Prop extends Facts₀ where

variable [Facts]
-- ==== Proof.KernelValue.lean ====
/-
  What the copying kernel leaves in its result, as one function of its argument.

  The program flattens the argument `x : f32[32, 512, 56, 56]` to `[401408, 128]` (a reshape: the same
  elements in row-major order), runs a kernel over a grid of 49 points whose body loads the point's block of
  8192 rows and stores it unchanged into the same block of the output, and reshapes the output back to
  `[32, 512, 56, 56]`.  Point `t` reads rows `8192·t … 8192·t + 8191` of the flattened argument and writes the
  same rows of the output; the 49 blocks tile the 401408 rows, so after the run the output array is the
  flattened argument, row for row, and the final reshape undoes the first: the result is `x`.
-/
import proofs.«165744_j56444460204139_2_alg».proof.Proof.Gen.KernelIdeal.Frame
import Idealize.ShloMosaic.Lib.Pipeline.Value
import Idealize.ShloMosaic.Lib.StableHlo.Run

noncomputable section

namespace Cert.KernelIdeal.CopyValue

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- The offset of the body's one load and one store: the block's origin. -/
theorem origin : (![0, 0] : Fin 2 → Nat) = fun _ => 0 := funext fun a => by fin_cases a <;> rfl

/-- The flattened argument: what the region finds in the array its input window stages. -/
abbrev flat (c : Dev nD) : S401408x128.Idx → Elt F .f32 := V m c main_v0

/-- The flattened argument is the reshape of the argument as launched (the one host operation before the region). -/
theorem flat_eq (c : Dev nD) :
    (flat m c : S401408x128.Idx → Elt F .f32)
      = shapeCast S401408x128 (m ((c : Thread nD τ).loc main_arg0)) shapeCasts_S32x512x56x56_S401408x128 := by
  show StableHlo.after hostOps0 (fun b => m (c, b)) (Proc.devRef .tc main_v0) = _
  after_results
  rfl

/-- Both windows use the same index map: at every point the input block and the output block are the same rows. -/
theorem same_block : ∀ t : Fin cfg0.N, win0_0.index t (0 : Fin 2) = win0_1.index t (0 : Fin 2)
    ∧ win0_0.index t (1 : Fin 2) = win0_1.index t (1 : Fin 2)
    ∧ win0_1.index t (1 : Fin 2) = 0 ∧ win0_1.index t (0 : Fin 2) ≤ 48 :=
  (by decide +kernel : ∀ t : Fin grid0.N, _)

/-- Every block of rows is some point's. -/
theorem block_onto : ∀ q : Fin 49, ∃ t : Fin cfg0.N, win0_1.index t = ![q.val, 0] :=
  (by decide +kernel : ∀ q : Fin 49, ∃ t : Fin grid0.N, win0_1.index t = ![q.val, 0])

/-- What point `t` writes back is block `t` of the flattened argument: the body stores what it loaded. -/
theorem flushed_eq (c : Dev nD) (t : Fin cfg0.N) :
    (dats m 0 c).flushed 1 t = ((cfg0.win 1).blk t).view.read (Elt F) (flat m c) := by
  show (cfg0.win 1).cut (grid0.coords t) ((dats m 0 c).after 1 t) = _
  rw [after0_1]
  unfold out0_1
  rw [View.canon_unit_zero origin]
  simp only [View.ld_unit_zero (S := S8192x128) origin]
  unfold k0_pay1
  rw [shapeCast_self]
  obtain ⟨e0, e1, e2, e3⟩ := same_block t
  funext j
  show V m c main_v0 (((cfg0.win 0).blk t).view.emb j) = V m c main_v0 (((cfg0.win 1).blk t).view.emb j)
  refine congrArg _ ?_
  funext a; apply Fin.ext
  match a with
  | ⟨0, _⟩ => show win0_0.index t (0 : Fin 2) * 8192 + 1 * (j 0).val = win0_1.index t (0 : Fin 2) * 8192 + 1 * (j 0).val; omega
  | ⟨1, _⟩ => show win0_0.index t (1 : Fin 2) * 128 + 1 * (j 1).val = win0_1.index t (1 : Fin 2) * 128 + 1 * (j 1).val; omega

/-- An index of the output array is in point `t`'s block iff each coordinate is in the block's range on its axis. -/
theorem mem_block (t : Fin cfg0.N) (i : S401408x128.Idx) :
    i ∈ ((cfg0.win 1).blk t).view.set ↔ ∀ a : Fin 2, win0_1.index t a * S8192x128.size a ≤ (i a).val ∧ (i a).val < win0_1.index t a * S8192x128.size a + S8192x128.size a := by
  show i ∈ ((View.whole main_v1).slice (win0_1.rect t)).set ↔ _
  rw [View.set_slice_whole, Rect.mem_set_unit]
  exact Iff.rfl

/-- Row `r` of the output is written by point `r / 8192`: the blocks cover the array. -/
theorem covered (i : S401408x128.Idx) :
    ∃ t : Fin cfg0.N, (cfg0.win 1).flush t = true ∧ i ∈ ((cfg0.win 1).blk t).view.set := by
  have hi0 : (i 0).val < 401408 := (i 0).isLt
  have hi1 : (i 1).val < 128 := (i 1).isLt
  obtain ⟨t, ht⟩ := block_onto ⟨(i 0).val / 8192, by omega⟩
  have q0 : win0_1.index t (0 : Fin 2) = (i 0).val / 8192 := congrFun ht 0
  have q1 : win0_1.index t (1 : Fin 2) = 0 := congrFun ht 1
  refine ⟨t, flush0_1 t, ?_⟩
  rw [mem_block]
  intro a
  match a with
  | ⟨0, _⟩ => show win0_1.index t (0 : Fin 2) * 8192 ≤ (i 0).val ∧ (i 0).val < win0_1.index t (0 : Fin 2) * 8192 + 8192; omega
  | ⟨1, _⟩ => show win0_1.index t (1 : Fin 2) * 128 ≤ (i 1).val ∧ (i 1).val < win0_1.index t (1 : Fin 2) * 128 + 128; omega

/-- The output array after the run is the flattened argument. -/
theorem output_eq (c : Dev nD) : (dats m 0 c).arrAt 1 cfg0.N = flat m c :=
  (dats m 0 c).arrAt_eq_of_cover 1 (flat m c) (fun t _ => flushed_eq m c t) covered

/-- The program's result: the reshape after the region applied to the output array, which is the argument. -/
theorem result_eq (c : Dev nD) :
    Pipeline.afterTail₀ cfgs (dats m) 0 (V0 m) [hostOps1] c main_v2 = m ((c : Thread nD τ).loc main_arg0) := by
  unfold Pipeline.afterTail₀
  show StableHlo.after hostOps1 _ (Proc.devRef .tc main_v2) = _
  after_results
  have hout : Pipeline.withArrays (cfgs 0).spec c (V0 m c) (fun w => (dats m 0 c).arrAt w (cfgs 0).N) (Proc.devRef .tc main_v1)
      = flat m c :=
    (Pipeline.withArrays_arr spec0 launch0.win.arr_inj c _ _ 1).trans (output_eq m c)
  rw [hout, flat_eq]
  exact shapeCast_shapeCast _ _ _

/-- Every weakly fair execution terminates with the result buffer holding the argument and the argument unchanged
    (the frame run re-posted: the result is no array of the pipeline, so it ends as the lines after the region leave it). -/
theorem run : θ_run defs (onTc (τ := τ) (main (F := F))) ⟨m, fun _ => 0, ρ⟩ fun r => ∀ c : Dev nD,
      r.2.mem ((c.tc : Thread nD τ).loc main_v2) = m ((c.tc : Thread nD τ).loc main_arg0)
      ∧ r.2.mem ((c.tc : Thread nD τ).loc main_arg0) = m ((c.tc : Thread nD τ).loc main_arg0) :=
  (θ_run defs _ _).mono (fun r h c =>
      ⟨((h c).2 main_v2 (Pipeline.mem_restRefs_of main_v2 (by decide) (by decide))).trans (result_eq m c),
       ((h c).2 main_arg0 (Pipeline.mem_restRefs_of main_arg0 (by decide) (by decide))).trans (W_main_arg0 m (dats m) c)⟩)
    (run_main m ρ)

end Cert.KernelIdeal.CopyValue

end
-- ==== Proof.ReferenceRun.lean ====
/-
  The reference's run, read back.

  The reference is a straight line of 22 host operations and no kernel: it builds the column of row numbers
  `0 … 55` (a literal table; the wrap-around of negative indices selects the table itself, its mask being all false),
  gathers the argument's rows by it along the height, sums the gathered window (of height one) over its own axis,
  divides by the window's size `1`, gathers the columns by the same table along the width, and reshapes
  `[32, 512, 56, 56, 1]` to `[32, 512, 56, 56]`.  Here that line is listed, and its run is stated with the
  result buffer at the operations' composed term of the argument, named `pooled`.
-/
import proofs.«165744_j56444460204139_2_alg».proof.Proof.Gen.ReferenceIdeal
import Idealize.ShloMosaic.Lib.StableHlo.Run

noncomputable section

namespace Cert.ReferenceIdeal.PoolRun

open Cert.ReferenceIdeal Cert.ReferenceIdeal.Gen Idealize.ShloMosaic Idealize.ShloMosaic.TcCoe Idealize.SL.Sem Idealize.ShloMosaic.StableHlo

variable {F : FTy → Type} [FloatOps F]

/-- The table of row numbers, as the first operation writes it: entry `(n, 0)` is the literal word `n`. -/
abbrev table : (⟨S56x1, .i32⟩ : BufTy).Contents (Elt F) := fun i => lit0 (S56x1.rowMajor i)

/-- The start indices both gathers read: the table where the (all-false) mask keeps it, with a trailing unit axis. -/
def starts : (⟨S56x1x1, .i32⟩ : BufTy).Contents (Elt F) :=
  broadcastInDim S56x1x1 ![0, 1] bcast_S56x1_S56x1x1_0_1
    (select (constantI S56x1 1 0#1) (addi (table (F := F)) (broadcastInDim S56x1 ![] bcast_S_S56x1 (constantI S_ 32 56#32))) (table (F := F)) : (⟨S56x1, .i32⟩ : BufTy).Contents (Elt F))

/-- The reference's result as a term of its argument: gather the rows, sum the unit window, divide by one, gather the
    columns, drop the trailing unit axis. -/
def pooled (x : (⟨S32x512x56x56, .f32⟩ : BufTy).Contents (Elt F)) : (⟨S32x512x56x56, .f32⟩ : BufTy).Contents (Elt F) :=
  fun i => shapeCast S32x512x56x56
    (Host.gather gather_S32x512x56x56_S56x1x1_S32x512x56x56x1_012_3_n_n_3_2_32512561
      (Host.divf
        (Host.reduceAdd (Host.gather gather_S32x512x56x56_S56x1x1_S32x512x56x1x56_014_2_n_n_2_2_32512156 x (starts (F := F))) (constant S_ .f32 0x00000000#32) reducesTo_S32x512x56x1x56_S32x512x56x56_d3 h_S_)
        (broadcastInDim S32x512x56x56 ![] bcast_S_S32x512x56x56 (constant S_ .f32 0x3F800000#32)))
      (starts (F := F)))
    shapeCasts_S32x512x56x56x1_S32x512x56x56 i

/-- @main's 22 operations, in order. -/
abbrev ops : List (HloOp τ sig (Elt F)) :=
  [ nullary main_c (fun i => lit0 (S56x1.rowMajor i)),
    nullary main_c_0 (constantI S56x1 1 0#1),
    nullary main_c_1 (constantI S56x1 1 0#1),
    nullary main_c_2 (constantI S_ 32 56#32),
    unary main_c_2 main_v0 (broadcastInDim S56x1 ![] bcast_S_S56x1 : (⟨S_, .i32⟩ : BufTy).Contents (Elt F) → (⟨S56x1, .i32⟩ : BufTy).Contents (Elt F)),
    binary main_c main_v0 main_v1 (addi : (⟨S56x1, .i32⟩ : BufTy).Contents (Elt F) → (⟨S56x1, .i32⟩ : BufTy).Contents (Elt F) → (⟨S56x1, .i32⟩ : BufTy).Contents (Elt F)),
    ternary main_c_0 main_v1 main_c main_v2 (select : (⟨S56x1, .i1⟩ : BufTy).Contents (Elt F) → (⟨S56x1, .i32⟩ : BufTy).Contents (Elt F) → (⟨S56x1, .i32⟩ : BufTy).Contents (Elt F) → (⟨S56x1, .i32⟩ : BufTy).Contents (Elt F)),
    unary main_v2 main_v3 (broadcastInDim S56x1x1 ![0, 1] bcast_S56x1_S56x1x1_0_1 : (⟨S56x1, .i32⟩ : BufTy).Contents (Elt F) → (⟨S56x1x1, .i32⟩ : BufTy).Contents (Elt F)),
    binary main_arg0 main_v3 main_v4 ((fun x i => Host.gather gather_S32x512x56x56_S56x1x1_S32x512x56x1x56_014_2_n_n_2_2_32512156 x i) : (⟨S32x512x56x56, .f32⟩ : BufTy).Contents (Elt F) → (⟨S56x1x1, .i32⟩ : BufTy).Contents (Elt F) → (⟨S32x512x56x1x56, .f32⟩ : BufTy).Contents (Elt F)),
    nullary main_cst (constant S_ .f32 0x00000000#32),
    binary main_v4 main_cst main_v5 ((fun x v => Host.reduceAdd x v reducesTo_S32x512x56x1x56_S32x512x56x56_d3 h_S_) : (⟨S32x512x56x1x56, .f32⟩ : BufTy).Contents (Elt F) → (⟨S_, .f32⟩ : BufTy).Contents (Elt F) → (⟨S32x512x56x56, .f32⟩ : BufTy).Contents (Elt F)),
    nullary main_cst_3 (constant S_ .f32 0x3F800000#32),
    unary main_cst_3 main_v6 (broadcastInDim S32x512x56x56 ![] bcast_S_S32x512x56x56 : (⟨S_, .f32⟩ : BufTy).Contents (Elt F) → (⟨S32x512x56x56, .f32⟩ : BufTy).Contents (Elt F)),
    binary main_v5 main_v6 main_v7 (Host.divf : (⟨S32x512x56x56, .f32⟩ : BufTy).Contents (Elt F) → (⟨S32x512x56x56, .f32⟩ : BufTy).Contents (Elt F) → (⟨S32x512x56x56, .f32⟩ : BufTy).Contents (Elt F)),
    nullary main_c_4 (constantI S_ 32 56#32),
    unary main_c_4 main_v8 (broadcastInDim S56x1 ![] bcast_S_S56x1 : (⟨S_, .i32⟩ : BufTy).Contents (Elt F) → (⟨S56x1, .i32⟩ : BufTy).Contents (Elt F)),
    binary main_c main_v8 main_v9 (addi : (⟨S56x1, .i32⟩ : BufTy).Contents (Elt F) → (⟨S56x1, .i32⟩ : BufTy).Contents (Elt F) → (⟨S56x1, .i32⟩ : BufTy).Contents (Elt F)),
    ternary main_c_1 main_v9 main_c main_v10 (select : (⟨S56x1, .i1⟩ : BufTy).Contents (Elt F) → (⟨S56x1, .i32⟩ : BufTy).Contents (Elt F) → (⟨S56x1, .i32⟩ : BufTy).Contents (Elt F) → (⟨S56x1, .i32⟩ : BufTy).Contents (Elt F)),
    unary main_v10 main_v11 (broadcastInDim S56x1x1 ![0, 1] bcast_S56x1_S56x1x1_0_1 : (⟨S56x1, .i32⟩ : BufTy).Contents (Elt F) → (⟨S56x1x1, .i32⟩ : BufTy).Contents (Elt F)),
    binary main_v7 main_v11 main_v12 ((fun x i => Host.gather gather_S32x512x56x56_S56x1x1_S32x512x56x56x1_012_3_n_n_3_2_32512561 x i) : (⟨S32x512x56x56, .f32⟩ : BufTy).Contents (Elt F) → (⟨S56x1x1, .i32⟩ : BufTy).Contents (Elt F) → (⟨S32x512x56x56x1, .f32⟩ : BufTy).Contents (Elt F)),
    reshape main_v12 main_v13 rfl shapeCasts_S32x512x56x56x1_S32x512x56x56 ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., nullary_bufs_sub .., nullary_bufs_sub .., nullary_bufs_sub .., unary_bufs_sub .., binary_bufs_sub ..,
   ternary_bufs_sub .., unary_bufs_sub .., binary_bufs_sub .., nullary_bufs_sub .., binary_bufs_sub .., nullary_bufs_sub ..,
   unary_bufs_sub .., binary_bufs_sub .., nullary_bufs_sub .., unary_bufs_sub .., binary_bufs_sub .., ternary_bufs_sub ..,
   unary_bufs_sub .., binary_bufs_sub .., reshape_bufs_sub ..⟩

/-- Every weakly fair execution of the reference terminates with its result at `pooled` of the argument as launched and
    the argument unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v13) = pooled (m ((c.tc : Thread nD τ).loc main_arg0))
      ∧ r.2.mem ((c.tc : Thread nD τ).loc main_arg0) = m ((c.tc : Thread nD τ).loc main_arg0) :=
  (θ_run defs _ _).mono (fun _ h c => ⟨(h c main_v13).trans (by after_results; rfl),
      (h c main_arg0).trans (by after_results)⟩)
    (run_seq scopedRefs_eq scopedSems_eq defs main (fun _ => ops) main_eq (fun _ => ops_sub) m ρ)

end Cert.ReferenceIdeal.PoolRun

end
-- ==== Proof.ReferenceValue.lean ====
/-
  The reference's result is its argument.

  With a height and width of 56 pooled to 56 × 56, the window has size one and stride one: the table of window
  positions is the column `0 … 55`, the gather along the height reads row `n` for position `n`, the mean over
  the window is `(0 + x) / 1`, and the gather along the width reads column `n` for position `n`.  On the extended
  reals `0 + x = x` and `x / 1 = x · 1⁻¹ = x` for every `x`, the infinities included, so no finiteness is used.
-/
import proofs.«165744_j56444460204139_2_alg».proof.Proof.ReferenceRun
import Idealize.ShloMosaic.Lib.ValueIdx
import Idealize.ShloMosaic.Lib.Pipeline.Value
import Idealize.ShloMosaic.PureOps.Ideal.Laws

noncomputable section

namespace Cert.ReferenceIdeal.PoolValue

open Cert.ReferenceIdeal Cert.ReferenceIdeal.Gen Cert.ReferenceIdeal.PoolRun Idealize.ShloMosaic Idealize.ShloMosaic.ValueIdx

/-- The rows gather. -/
abbrev rowsDims := gather_S32x512x56x56_S56x1x1_S32x512x56x1x56_014_2_n_n_2_2_32512156
/-- The columns gather. -/
abbrev colsDims := gather_S32x512x56x56_S56x1x1_S32x512x56x56x1_012_3_n_n_3_2_32512561

/-- Entry `(n, 0, 0)` of the start indices is the number `n`, already inside `[0, 55]`: the clamp keeps it. -/
theorem starts_at : ∀ n : Fin 56,
    min ((starts (F := Ideal) (ix3 n (0 : Fin 1) (0 : Fin 1)) : BitVec 32)).toInt.toNat 55 = n.val := by
  decide +kernel

/-- The start-indices entry the rows gather reads for the result index `(b, c, n, 0, w)` is `(n, 0, 0)`. -/
theorem rows_si (b : Fin 32) (c : Fin 512) (n : Fin 56) (w : Fin 56) (k : Fin rowsDims.startIndexMap.length) :
    rowsDims.siIdx (ix5 b c n (0 : Fin 1) w) k = ix3 n (0 : Fin 1) (0 : Fin 1) := by
  funext a; refine Fin.ext ?_
  match a with
  | ⟨0, _⟩ => rfl
  | ⟨1, _⟩ => rfl
  | ⟨2, _⟩ => exact Nat.lt_one_iff.mp k.isLt

/-- The rows gather read at `(b, c, n, 0, w)`, when the clamped start index at `(n, 0, 0)` is `n` itself: the operand at
    `(b, c, n, w)`. -/
theorem rows_apply {α : Type} (x : S32x512x56x56.Idx → α) (idx : IVec S56x1x1 32) (b : Fin 32) (c : Fin 512) (n : Fin 56) (w : Fin 56)
    (hn : min (idx (ix3 n (0 : Fin 1) (0 : Fin 1))).toInt.toNat 55 = n.val) :
    Host.gather rowsDims x idx (ix5 b c n (0 : Fin 1) w) = x (ix4 b c n w) := by
  unfold Host.gather
  refine congrArg x ?_
  funext a; refine Fin.ext ?_
  match a with
  | ⟨0, _⟩ =>
    show rowsDims.start (ix5 b c n (0 : Fin 1) w) idx 0 + rowsDims.batchCoord (ix5 b c n (0 : Fin 1) w) 0 + rowsDims.offCoord (ix5 b c n (0 : Fin 1) w) 0 = _
    rw [GatherDims.batchCoord_eq_zero _ _ _ List.not_mem_nil]
    unfold GatherDims.start GatherDims.offCoord
    rw [dif_neg (by decide), dif_pos (by decide), Nat.zero_add]
    exact (show ∀ e : Fin 5, e = 0 → (ix5 b c n (0 : Fin 1) w e).val = b.val from by rintro _ rfl; rfl) _ (by decide)
  | ⟨1, _⟩ =>
    show rowsDims.start (ix5 b c n (0 : Fin 1) w) idx 1 + rowsDims.batchCoord (ix5 b c n (0 : Fin 1) w) 1 + rowsDims.offCoord (ix5 b c n (0 : Fin 1) w) 1 = _
    rw [GatherDims.batchCoord_eq_zero _ _ _ List.not_mem_nil]
    unfold GatherDims.start GatherDims.offCoord
    rw [dif_neg (by decide), dif_pos (by decide), Nat.zero_add]
    exact (show ∀ e : Fin 5, e = 1 → (ix5 b c n (0 : Fin 1) w e).val = c.val from by rintro _ rfl; rfl) _ (by decide)
  | ⟨2, _⟩ =>
    show rowsDims.start (ix5 b c n (0 : Fin 1) w) idx 2 + rowsDims.batchCoord (ix5 b c n (0 : Fin 1) w) 2 + rowsDims.offCoord (ix5 b c n (0 : Fin 1) w) 2 = _
    rw [GatherDims.batchCoord_eq_zero _ _ _ List.not_mem_nil, GatherDims.offCoord_eq_zero _ _ _ (by decide)]
    unfold GatherDims.start
    rw [dif_pos (by decide), rows_si]
    exact hn
  | ⟨3, _⟩ =>
    show rowsDims.start (ix5 b c n (0 : Fin 1) w) idx 3 + rowsDims.batchCoord (ix5 b c n (0 : Fin 1) w) 3 + rowsDims.offCoord (ix5 b c n (0 : Fin 1) w) 3 = _
    rw [GatherDims.batchCoord_eq_zero _ _ _ List.not_mem_nil]
    unfold GatherDims.start GatherDims.offCoord
    rw [dif_neg (by decide), dif_pos (by decide), Nat.zero_add]
    exact (show ∀ e : Fin 5, e = 4 → (ix5 b c n (0 : Fin 1) w e).val = w.val from by rintro _ rfl; rfl) _ (by decide)

/-- The start-indices entry the cols gather reads for the result index `(b, c, h, n, 0)` is `(n, 0, 0)`. -/
theorem cols_si (b : Fin 32) (c : Fin 512) (h : Fin 56) (n : Fin 56) (k : Fin colsDims.startIndexMap.length) :
    colsDims.siIdx (ix5 b c h n (0 : Fin 1)) k = ix3 n (0 : Fin 1) (0 : Fin 1) := by
  funext a; refine Fin.ext ?_
  match a with
  | ⟨0, _⟩ => rfl
  | ⟨1, _⟩ => rfl
  | ⟨2, _⟩ => exact Nat.lt_one_iff.mp k.isLt

/-- The cols gather read at `(b, c, h, n, 0)`, when the clamped start index at `(n, 0, 0)` is `n` itself: the operand at
    `(b, c, h, n)`. -/
theorem cols_apply {α : Type} (x : S32x512x56x56.Idx → α) (idx : IVec S56x1x1 32) (b : Fin 32) (c : Fin 512) (h : Fin 56) (n : Fin 56)
    (hn : min (idx (ix3 n (0 : Fin 1) (0 : Fin 1))).toInt.toNat 55 = n.val) :
    Host.gather colsDims x idx (ix5 b c h n (0 : Fin 1)) = x (ix4 b c h n) := by
  unfold Host.gather
  refine congrArg x ?_
  funext a; refine Fin.ext ?_
  match a with
  | ⟨0, _⟩ =>
    show colsDims.start (ix5 b c h n (0 : Fin 1)) idx 0 + colsDims.batchCoord (ix5 b c h n (0 : Fin 1)) 0 + colsDims.offCoord (ix5 b c h n (0 : Fin 1)) 0 = _
    rw [GatherDims.batchCoord_eq_zero _ _ _ List.not_mem_nil]
    unfold GatherDims.start GatherDims.offCoord
    rw [dif_neg (by decide), dif_pos (by decide), Nat.zero_add]
    exact (show ∀ e : Fin 5, e = 0 → (ix5 b c h n (0 : Fin 1) e).val = b.val from by rintro _ rfl; rfl) _ (by decide)
  | ⟨1, _⟩ =>
    show colsDims.start (ix5 b c h n (0 : Fin 1)) idx 1 + colsDims.batchCoord (ix5 b c h n (0 : Fin 1)) 1 + colsDims.offCoord (ix5 b c h n (0 : Fin 1)) 1 = _
    rw [GatherDims.batchCoord_eq_zero _ _ _ List.not_mem_nil]
    unfold GatherDims.start GatherDims.offCoord
    rw [dif_neg (by decide), dif_pos (by decide), Nat.zero_add]
    exact (show ∀ e : Fin 5, e = 1 → (ix5 b c h n (0 : Fin 1) e).val = c.val from by rintro _ rfl; rfl) _ (by decide)
  | ⟨2, _⟩ =>
    show colsDims.start (ix5 b c h n (0 : Fin 1)) idx 2 + colsDims.batchCoord (ix5 b c h n (0 : Fin 1)) 2 + colsDims.offCoord (ix5 b c h n (0 : Fin 1)) 2 = _
    rw [GatherDims.batchCoord_eq_zero _ _ _ List.not_mem_nil]
    unfold GatherDims.start GatherDims.offCoord
    rw [dif_neg (by decide), dif_pos (by decide), Nat.zero_add]
    exact (show ∀ e : Fin 5, e = 2 → (ix5 b c h n (0 : Fin 1) e).val = h.val from by rintro _ rfl; rfl) _ (by decide)
  | ⟨3, _⟩ =>
    show colsDims.start (ix5 b c h n (0 : Fin 1)) idx 3 + colsDims.batchCoord (ix5 b c h n (0 : Fin 1)) 3 + colsDims.offCoord (ix5 b c h n (0 : Fin 1)) 3 = _
    rw [GatherDims.batchCoord_eq_zero _ _ _ List.not_mem_nil, GatherDims.offCoord_eq_zero _ _ _ (by decide)]
    unfold GatherDims.start
    rw [dif_pos (by decide), cols_si]
    exact hn

/-- The divisor: the word `0x3F800000` is the number one. -/
theorem one_f32 : Ideal.ofBits .f32 0x3F800000#32 = 1 := by
  simp [Ideal.ofBits, Ideal.ieee, -EReal.coe_mul]
  norm_num

/-- A quotient by one is the dividend, on every extended real. -/
theorem div_one (x : EReal) : Ideal.div x 1 = x := by
  unfold Ideal.div
  rw [if_neg one_ne_zero, inv_one, mul_one]

/-- The reference's result is its argument, index by index: the two gathers read position `n` at `n`, the sum over
    the unit window is `0 + x`, the mean divides by one. -/
theorem pooled_eq (x : S32x512x56x56.Idx → EReal) : pooled (F := Ideal) x = x := by
  funext i
  obtain ⟨b, c, h, w, rfl⟩ : ∃ (b : Fin 32) (c : Fin 512) (h : Fin 56) (w : Fin 56), i = ix4 b c h w :=
    ⟨i 0, i 1, i 2, i 3, eq_ix4 i⟩
  unfold pooled
  rw [shapeCast_apply _ _ (ix4 b c h w) (ix5 b c h w (0 : Fin 1)) (by
    rw [Shape.rowMajor_val_five, Shape.rowMajor_val_four]; simp)]
  rw [cols_apply _ _ b c h w (starts_at w)]
  show Ideal.div (Ideal.hostReduceAdd reducesTo_S32x512x56x1x56_S32x512x56x56_d3 (Host.gather rowsDims x (starts (F := Ideal)))
      (Ideal.ofBits .f32 0x00000000#32) (ix4 b c h w)) (Ideal.ofBits .f32 0x3F800000#32) = _
  have hred : S32x512x56x1x56.Reduces [3] S32x512x56x56 := by decide
  rw [one_f32, div_one, Ideal.ofBits_zero_f32,
    Ideal.hostReduceAdd_single reducesTo_S32x512x56x1x56_S32x512x56x56_d3 hred, zero_add]
  refine (Fin.sum_univ_one _).trans ?_
  have hl : hred.lift (ix4 b c h w) (0 : Fin 1) = ix5 b c h (0 : Fin 1) w := by
    funext a; refine Fin.ext ?_
    match a with
    | ⟨0, _⟩ => rfl
    | ⟨1, _⟩ => rfl
    | ⟨2, _⟩ => rfl
    | ⟨3, _⟩ => rfl
    | ⟨4, _⟩ => rfl
  rw [hl]
  exact rows_apply x _ b c h w (starts_at h)

end Cert.ReferenceIdeal.PoolValue

end
-- ==== Proof.lean ====
/-
  The claim: a lane-dense copy kernel against an average pool whose window has size one.

  The kernel's program flattens `x : f32[32, 512, 56, 56]` to `[401408, 128]`, copies it block by block (49 blocks of
  8192 rows, each loaded and stored unchanged) and reshapes the copy back; its result is `x` (Proof/KernelValue.lean:
  the blocks tile the rows, and a reshape there and back is the identity).  The reference pools a 56 × 56 map to
  56 × 56: stride one, window one; it gathers row `n` for position `n`, takes the mean `(0 + x) / 1` of the
  one-element window, and gathers column `n` for position `n`; on the extended reals that is `x` again, with no
  appeal to finiteness (Proof/ReferenceRun.lean lists the reference's operations and reads its run back;
  Proof/ReferenceValue.lean reads the composed term index by index).  So both programs end with the argument itself
  in their result buffers, and the argument arrays are unchanged: the two idealized programs agree.  The idealization
  rewrote no operation of the kernel, so that it is the kernel's sanctioned idealization asks nothing.
-/
import proofs.«165744_j56444460204139_2_alg».proof.Defs
import proofs.«165744_j56444460204139_2_alg».proof.Proof.Gen.Kernel
import proofs.«165744_j56444460204139_2_alg».proof.Proof.Gen.Kernel.Skeleton
import proofs.«165744_j56444460204139_2_alg».proof.Proof.Gen.Kernel.Launch
import proofs.«165744_j56444460204139_2_alg».proof.Proof.Gen.Kernel.Points
import proofs.«165744_j56444460204139_2_alg».proof.Proof.Gen.Kernel.Frame
import proofs.«165744_j56444460204139_2_alg».proof.Proof.Gen.KernelIdeal
import proofs.«165744_j56444460204139_2_alg».proof.Proof.Gen.KernelIdeal.Skeleton
import proofs.«165744_j56444460204139_2_alg».proof.Proof.Gen.KernelIdeal.Launch
import proofs.«165744_j56444460204139_2_alg».proof.Proof.Gen.KernelIdeal.Points
import proofs.«165744_j56444460204139_2_alg».proof.Proof.Gen.KernelIdeal.Frame
import proofs.«165744_j56444460204139_2_alg».proof.Proof.Gen.ReferenceIdeal
import proofs.«165744_j56444460204139_2_alg».proof.Proof.Gen.Pre_finite_inputs
import proofs.«165744_j56444460204139_2_alg».proof.Proof.KernelValue
import proofs.«165744_j56444460204139_2_alg».proof.Proof.ReferenceRun
import proofs.«165744_j56444460204139_2_alg».proof.Proof.ReferenceValue
import Idealize.ShloMosaic.Adequacy
import Idealize.ShloMosaic.Init

noncomputable section

namespace Cert.Proof

open Idealize.ShloMosaic Idealize.SL.Sem

/-- The kernel's program, at the word level, runs and leaves its argument as launched. -/
theorem frame_kernel : Cert.frame_Kernel := fun m ρ _ => Cert.Kernel.Gen.frame m ρ

/-- The same program read over the extended reals runs and leaves its argument as launched. -/
theorem frame_kernelIdeal : Cert.frame_KernelIdeal := fun m ρ _ => Cert.KernelIdeal.Gen.frame m ρ

/-- The reference runs and leaves its argument as launched: its run, with the result forgotten. -/
theorem frame_reference : Cert.frame_ReferenceIdeal := fun m ρ _ =>
  (θ_run Cert.ReferenceIdeal.defs _ _).mono (fun _ h c => (h c).2) (Cert.ReferenceIdeal.PoolRun.run (F := Ideal) m ρ)

/-- No operation of the kernel was rewritten for the reading over the extended reals. -/
theorem preserves : Cert.preserves_Kernel_KernelIdeal := trivial

/-- From memories agreeing on the argument, the kernel's program ends with the argument in its result and so does the
    reference: the copy is the identity, and the mean over a one-element window is `(0 + x) / 1 = x`. -/
theorem algebraic : Cert.algebraic_KernelIdeal_ReferenceIdeal := by
  intro m ρ m' ρ' _ hagree
  refine ⟨_, Cert.KernelIdeal.CopyValue.run (F := Ideal) m ρ, ?_⟩
  refine (θ_run Cert.ReferenceIdeal.defs _ _).mono (fun _ h c => ⟨(h c).1.trans ?_, (h c).2⟩)
    (Cert.ReferenceIdeal.PoolRun.run (F := Ideal) m' ρ')
  rw [Cert.ReferenceIdeal.PoolValue.pooled_eq]
  exact hagree c

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
